-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S16384x1024, .bf16⟩
  | .hbm, ⟨12, _⟩ => ⟨S16384x1024, .bf16⟩
  | .hbm, ⟨13, _⟩ => ⟨S8x2048x1024, .bf16⟩
  | .hbm, ⟨14, _⟩ => ⟨S8x2048x1024, .bf16⟩
  | .hbm, ⟨15, _⟩ => ⟨S8x2048x2048, .f32⟩
  | .hbm, ⟨16, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1024x1024, .bf16⟩
  | .local _ .vmem, ⟨16, _⟩ => ⟨S1x256x2048, .f32⟩
  | .local _ .vmem, ⟨17, _⟩ => ⟨S1x256x2048, .f32⟩
  | .local _ .vmem, ⟨18, _⟩ => ⟨S1x256x1024, .f32⟩
  | .local _ .vmem, ⟨19, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S8x2048x1024_S16384x1024 : S8x2048x1024.ShapeCasts S16384x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S8x2048x2048.size a
  hwx1_5 : ∀ i : grid1.Coords, EltTy.bits .f32 = 32 ∨ (Rect.block (s := S8x2048x2048) S1x256x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x2048x1024.size a
  hwx1_6 : ∀ i : grid1.Coords, EltTy.bits .f32 = 32 ∨ (Rect.block (s := S8x2048x1024) S1x256x1024.size (cc1_transform_6 i) (hinb1_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S1x256x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x1024, .f32⟩
  | .hbm, ⟨31, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  Scaled dot-product attention with its two projections folded in, on the extended reals.

  For ONE query row `x` (a vector of 1024 numbers), a query projection `Wq`, the 2048 key rows `Kb` and value rows `Vb`
  of that row's batch, and an output projection `Wo`:
    q e      = Σ_d x d · Wq d e
    s k      = (Σ_e q e · Kb k e) · 2⁻⁵
    m        = max_k s k                      (the fold of `max` from −∞)
    p k      = exp (s k − m)
    w k      = p k / Σ_k' p k'                (the attention weights: the second result)
    out f    = Σ_e (Σ_k w k · Vb k e) · Wo e f  (the first result)
  and the key and value rows are themselves projections of the context's rows, `Kb k e = Σ_d c k d · Wk d e`.
  Every sum is over a `Fin` of the literal extent, in one fixed nesting, so that a program's sums meet these term by term.

  The scale: the reference divides one by the square root of 1024; 1024 = 32², so that is 1/32 = 2⁻⁵, the number the
  pattern 0x3D000000 denotes.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-! ## One row -/

/-- The softmax scale as the kernel spells it: the f32 pattern of 2⁻⁵. -/
def scale : EReal := Ideal.ofBits .f32 0x3D000000#32

/-- The value a running maximum starts from: the f32 pattern of −∞. -/
def negInf : EReal := Ideal.ofBits .f32 0xFF800000#32

/-- A row of 1024 numbers through a 1024 × 1024 matrix. -/
def proj (x : Fin 1024 → EReal) (W : Fin 1024 → Fin 1024 → EReal) (e : Fin 1024) : EReal :=
  ∑ d : Fin 1024, x d * W d e

/-- The scaled score of a projected query against key row `k`. -/
def score (q : Fin 1024 → EReal) (Kb : Fin 2048 → Fin 1024 → EReal) (k : Fin 2048) : EReal :=
  (∑ e : Fin 1024, q e * Kb k e) * scale

/-- The largest of 2048 scores, from −∞. -/
def smax (s : Fin 2048 → EReal) : EReal := (Finset.univ : Finset (Fin 2048)).fold max negInf s

/-- A score's exponential after the largest is taken off. -/
def pexp (s : Fin 2048 → EReal) (k : Fin 2048) : EReal := Ideal.exp (s k - smax s)

/-- The softmax of 2048 scores. -/
def softmax (s : Fin 2048 → EReal) (k : Fin 2048) : EReal := Ideal.div (pexp s k) (∑ k' : Fin 2048, pexp s k')

/-- The attention weights of one query row. -/
def weights (x : Fin 1024 → EReal) (Wq : Fin 1024 → Fin 1024 → EReal) (Kb : Fin 2048 → Fin 1024 → EReal) (k : Fin 2048) : EReal :=
  softmax (score (proj x Wq) Kb) k

/-- The weighted value rows of one query row. -/
def context (w : Fin 2048 → EReal) (Vb : Fin 2048 → Fin 1024 → EReal) (e : Fin 1024) : EReal :=
  ∑ k : Fin 2048, w k * Vb k e

/-- The projected output of one query row. -/
def output (x : Fin 1024 → EReal) (Wq : Fin 1024 → Fin 1024 → EReal) (Kb Vb : Fin 2048 → Fin 1024 → EReal)
    (Wo : Fin 1024 → Fin 1024 → EReal) (f : Fin 1024) : EReal :=
  proj (context (weights x Wq Kb) Vb) Wo f

/-! ## The whole arrays -/

abbrev SAct : Shape := ⟨3, ![8, 2048, 1024]⟩
abbrev SMat : Shape := ⟨2, ![1024, 1024]⟩
abbrev SWts : Shape := ⟨3, ![8, 2048, 2048]⟩

/-- Row `s` of batch `b` of an activation array. -/
def rowOf (X : SAct.Idx → EReal) (b : Fin 8) (s : Fin 2048) : Fin 1024 → EReal := fun d => X (ix3 b s d)

/-- A weight array as a matrix. -/
def mat (W : SMat.Idx → EReal) : Fin 1024 → Fin 1024 → EReal := fun d e => W (ix2 d e)

/-- The projected rows of batch `b` of the context: its keys (with `Wk`) or its values (with `Wv`). -/
def kv (C : SAct.Idx → EReal) (W : SMat.Idx → EReal) (b : Fin 8) : Fin 2048 → Fin 1024 → EReal :=
  fun k e => proj (rowOf C b k) (mat W) e

/-- The attention weights, every batch and query row. -/
def weightsG (X C : SAct.Idx → EReal) (Wq Wk : SMat.Idx → EReal) : SWts.Idx → EReal :=
  fun i => weights (rowOf X (i 0) (i 1)) (mat Wq) (kv C Wk (i 0)) (i 2)

/-- The attention output, every batch and query row. -/
def outputG (X C : SAct.Idx → EReal) (Wq Wk Wv Wo : SMat.Idx → EReal) : SAct.Idx → EReal :=
  fun i => output (rowOf X (i 0) (i 1)) (mat Wq) (kv C Wk (i 0)) (kv C Wv (i 0)) (mat Wo) (i 2)

/-! ## The scale -/

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_scale : Ideal.ofBits .f32 0x3D000000#32 = ((1 / 32 : ℝ) : EReal) := by
  simp [Ideal.ofBits, Ideal.ieee, -EReal.coe_mul]; norm_num

/-- One over the square root of 1024 is 2⁻⁵: 1024 is the square of 32. -/
theorem one_div_sqrt_1024 :
    Ideal.div (Ideal.ofBits .f32 0x3F800000#32) (Ideal.sqrt (Ideal.ofBits .f32 0x44800000#32)) = scale := by
  have h32 : Real.sqrt 1024 = 32 := by
    rw [show (1024 : ℝ) = 32 * 32 by norm_num]; exact Real.sqrt_mul_self (by norm_num)
  unfold scale
  rw [ofBits_1024, ofBits_one, ofBits_scale, Ideal.sqrt_coe, if_neg (by norm_num), h32,
    Ideal.div_coe (by norm_num), ← EReal.coe_mul]
  norm_num

/-- A running maximum is above the value it starts from. -/
theorem negInf_le_smax (s : Fin 2048 → EReal) : negInf ≤ smax s :=
  (Finset.le_fold_max negInf).mpr (Or.inl le_rfl)

end Cert.Attn

end
-- ==== Proof.Run.lean ====
/-
  The kernel program's run with its two results named.

  The program is four segments in a row: five host operations (a reshape of the context and four changes of format of the
  weights), the key/value projection region, two host reshapes, the attention region. The contents of every buffer at each
  boundary are a fold through those segments from the launch memory; the last boundary's contents are `Gen.W4`. Every
  weakly fair execution terminates with every buffer that outlives the regions holding `Gen.W4`'s contents: the launch of
  the segments, and the last thread state read against the final memory. Read at the two result buffers and the six
  arguments, that is the run this module states.
-/
import proofs.«130944_j86835648791168_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the output projection's result and the attention
    weights at the last boundary's contents, and the six arguments as launched. -/
theorem run_named : θ_run defs (onTc (τ := τ) (main (F := F))) ⟨m, fun _ => 0, ρ⟩ (fun r => ∀ c : Dev nD,
      r.2.mem ((c.tc : Thread nD τ).loc main_v8_1) = W4 m ρ c (Proc.devRef .tc main_v8_1)
      ∧ r.2.mem ((c.tc : Thread nD τ).loc main_v8_0) = W4 m ρ c (Proc.devRef .tc main_v8_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8_1 (by decide)),
       h c _ (mem_uc main_v8_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.HostVals.lean ====
/-
  What the two regions find in the buffers they read, in terms of the launch memory.

  Before the first region the host flattens the context `[8, 2048, 1024]` to `[16384, 1024]` (row `b · 2048 + s` of the
  flat array is row `s` of batch `b`) and changes the four weight matrices' format, which on the extended reals changes
  nothing. Between the regions it casts the two `[16384, 1024]` projections back to `[8, 2048, 1024]`. Nothing else is
  written: the second region finds the input, `Wq` and `Wo` as launched.
-/
import proofs.«130944_j86835648791168_2_alg».proof.Proof.Gen.KernelIdeal.Frame
import proofs.«130944_j86835648791168_2_alg».proof.Proof.LibRank3Layout
import Idealize.ShloMosaic.Lib.StableHlo.Run
import Idealize.ShloMosaic.Lib.ValueIdx

set_option maxRecDepth 16384

noncomputable section

namespace Cert.KernelIdeal.HostVals

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-- The flattened context. -/
theorem V1_v0 (c : Dev nD) :
    (V1 m ρ c main_v0 : S16384x1024.Idx → EReal)
      = shapeCast S16384x1024 (m ((c : Thread nD τ).loc main_arg1)) shapeCasts_S8x2048x1024_S16384x1024 := by
  show StableHlo.after hostOps0 (W0 m ρ c) (Proc.devRef .tc main_v0) = _
  after_results
  rfl

/-- `Wk` in the narrower format is `Wk`. -/
theorem V1_v2 (c : Dev nD) : (V1 m ρ c main_v2 : S1024x1024.Idx → EReal) = m ((c : Thread nD τ).loc main_arg3) := by
  show StableHlo.after hostOps0 (W0 m ρ c) (Proc.devRef .tc main_v2) = _
  after_results
  rfl

/-- `Wq` likewise. -/
theorem V1_v1 (c : Dev nD) : (V1 m ρ c main_v1 : S1024x1024.Idx → EReal) = m ((c : Thread nD τ).loc main_arg2) := by
  show StableHlo.after hostOps0 (W0 m ρ c) (Proc.devRef .tc main_v1) = _
  after_results
  rfl

/-- `Wv` likewise. -/
theorem V1_v3 (c : Dev nD) : (V1 m ρ c main_v3 : S1024x1024.Idx → EReal) = m ((c : Thread nD τ).loc main_arg4) := by
  show StableHlo.after hostOps0 (W0 m ρ c) (Proc.devRef .tc main_v3) = _
  after_results
  rfl

/-- `Wo` likewise. -/
theorem V1_v4 (c : Dev nD) : (V1 m ρ c main_v4 : S1024x1024.Idx → EReal) = m ((c : Thread nD τ).loc main_arg5) := by
  show StableHlo.after hostOps0 (W0 m ρ c) (Proc.devRef .tc main_v4) = _
  after_results
  rfl

/-- Row `b · 2048 + s` of the flattened context is row `s` of batch `b`. -/
theorem V1_v0_apply (c : Dev nD) (b : Fin 8) (s : Fin 2048) (d : Fin 1024) (r : Fin 16384) (hr : r.val = b.val * 2048 + s.val) :
    (V1 m ρ c main_v0 : S16384x1024.Idx → EReal) (ix2 r d)
      = (m ((c : Thread nD τ).loc main_arg1) : S8x2048x1024.Idx → EReal) (ix3 b s d) := by
  rw [V1_v0]
  exact ValueLayout3.shapeCast_abc_nc_apply _ _ r b s d hr

/-- The key rows the second region reads: the first region's first result cast back to three axes. -/
theorem V3_v6 (c : Dev nD) :
    (V3 m ρ c main_v6 : S8x2048x1024.Idx → EReal)
      = shapeCast S8x2048x1024 (W2 m ρ c (Proc.devRef .tc main_v5_0)) shapeCasts_S16384x1024_S8x2048x1024 := by
  show StableHlo.after hostOps1 (W2 m ρ c) (Proc.devRef .tc main_v6) = _
  after_results
  rfl

/-- The value rows likewise, from the first region's second result. -/
theorem V3_v7 (c : Dev nD) :
    (V3 m ρ c main_v7 : S8x2048x1024.Idx → EReal)
      = shapeCast S8x2048x1024 (W2 m ρ c (Proc.devRef .tc main_v5_1)) shapeCasts_S16384x1024_S8x2048x1024 := by
  show StableHlo.after hostOps1 (W2 m ρ c) (Proc.devRef .tc main_v7) = _
  after_results
  rfl

/-- The second region finds the input as launched: no segment before it writes that buffer. -/
theorem V3_arg0 (c : Dev nD) : (V3 m ρ c main_arg0 : S8x2048x1024.Idx → EReal) = m ((c : Thread nD τ).loc main_arg0) := by
  have h1 : W3 m ρ c (Proc.devRef .tc main_arg0) = W2 m ρ c (Proc.devRef .tc main_arg0) := by
    show StableHlo.after hostOps1 (W2 m ρ c) (Proc.devRef .tc main_arg0) = _
    after_results
  have h3 : W1 m ρ c (Proc.devRef .tc main_arg0) = m ((c : Thread nD τ).loc main_arg0) := by
    show StableHlo.after hostOps0 (W0 m ρ c) (Proc.devRef .tc main_arg0) = _
    after_results
  exact h1.trans ((W2_of_ne m ρ c main_arg0 (by decide)).trans h3)

/-- … and `Wq`, written once before the first region. -/
theorem V3_v1 (c : Dev nD) : (V3 m ρ c main_v1 : S1024x1024.Idx → EReal) = m ((c : Thread nD τ).loc main_arg2) := by
  have h1 : W3 m ρ c (Proc.devRef .tc main_v1) = W2 m ρ c (Proc.devRef .tc main_v1) := by
    show StableHlo.after hostOps1 (W2 m ρ c) (Proc.devRef .tc main_v1) = _
    after_results
  exact h1.trans ((W2_of_ne m ρ c main_v1 (by decide)).trans (V1_v1 m ρ c))

/-- … and `Wo`. -/
theorem V3_v4 (c : Dev nD) : (V3 m ρ c main_v4 : S1024x1024.Idx → EReal) = m ((c : Thread nD τ).loc main_arg5) := by
  have h1 : W3 m ρ c (Proc.devRef .tc main_v4) = W2 m ρ c (Proc.devRef .tc main_v4) := by
    show StableHlo.after hostOps1 (W2 m ρ c) (Proc.devRef .tc main_v4) = _
    after_results
  exact h1.trans ((W2_of_ne m ρ c main_v4 (by decide)).trans (V1_v4 m ρ c))

end Cert.KernelIdeal.HostVals
end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payload.lean ====
/-
  What the kernel's two bodies compute, read at an index.

  Each body's arithmetic is a nest of matrix products, row reductions and pointwise operations over the loaded blocks.
  Read at explicit coordinates, a matrix product into a zero accumulator is the sum over the contracted coordinate of
  the operands' products; a row maximum is the fold of `max` from −∞ over the row; a row sum is the sum over the row;
  the casts and broadcasts read their operand at the coordinates with the same row-major position. Chained, the first
  body's two results at `(p, q)` are the projection of row `p` of the loaded block through the loaded matrix, and the
  second body's results at `(0, r, ·)` are the attention weights and the projected output of query row `r`.
-/
import proofs.«130944_j86835648791168_2_alg».proof.Proof.Gen.KernelIdeal.Skeleton
import proofs.«130944_j86835648791168_2_alg».proof.Proof.Spec
import proofs.«130944_j86835648791168_2_alg».proof.Proof.LibKeepdims
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Pay

open Cert.KernelIdeal Cert.KernelIdeal.Gen Idealize.ShloMosaic Idealize.ShloMosaic.ValueIdx

/-! ## A matrix product into the zero accumulator, at `(p, q)` -/

theorem mm_sq_lhs0 (j : S1024x1024.Idx) (c : dot_S1024x1024_S1024x1024_S1024x1024_1_0_0_1_n_n.contr.Idx) :
    (dot_S1024x1024_S1024x1024_S1024x1024_1_0_0_1_n_n.lhsIdx j c 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem mm_sq_rhs1 (j : S1024x1024.Idx) (c : dot_S1024x1024_S1024x1024_S1024x1024_1_0_0_1_n_n.contr.Idx) :
    (dot_S1024x1024_S1024x1024_S1024x1024_1_0_0_1_n_n.rhsIdx j c 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- `[1024, 1024] · [1024, 1024]`, contracting the left operand's columns with the right operand's rows. -/
theorem mm_sq_apply (l : FVec Ideal S1024x1024 .bf16) (r : FVec Ideal S1024x1024 .bf16) (p : Fin 1024) (q : Fin 1024) :
    matmul dot_S1024x1024_S1024x1024_S1024x1024_1_0_0_1_n_n none l r (constant (F := Ideal) S1024x1024 .f32 0x00000000#32) (ix2 p q)
      = ∑ d : Fin 1024, l (ix2 p d) * r (ix2 d q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact mm_sq_lhs0 _ _
      | ⟨1, _⟩ => exact (dot_S1024x1024_S1024x1024_S1024x1024_1_0_0_1_n_n.lhsIdx_val_of_single rfl (ix2 p q) _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (dot_S1024x1024_S1024x1024_S1024x1024_1_0_0_1_n_n.rhsIdx_val_of_single rfl (ix2 p q) _).trans hk
      | ⟨1, _⟩ => exact mm_sq_rhs1 _ _)
  rw [el, er]

theorem mm_q_lhs0 (j : S256x1024.Idx) (c : dot_S256x1024_S1024x1024_S256x1024_1_0_0_1_n_n.contr.Idx) :
    (dot_S256x1024_S1024x1024_S256x1024_1_0_0_1_n_n.lhsIdx j c 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem mm_q_rhs1 (j : S256x1024.Idx) (c : dot_S256x1024_S1024x1024_S256x1024_1_0_0_1_n_n.contr.Idx) :
    (dot_S256x1024_S1024x1024_S256x1024_1_0_0_1_n_n.rhsIdx j c 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- `[256, 1024] · [1024, 1024]`, contracting the left operand's columns with the right operand's rows. -/
theorem mm_q_apply (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q)
      = ∑ d : Fin 1024, l (ix2 p d) * r (ix2 d q) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q)
      ((contrEquiv1 dot_S256x1024_S1024x1024_S256x1024_1_0_0_1_n_n 1024 rfl rfl).symm k) = ix2 p k :=
    funext fun a => Fin.ext (by
      match a with
      | ⟨0, _⟩ => exact mm_q_lhs0 _ _
      | ⟨1, _⟩ => exact (dot_S256x1024_S1024x1024_S256x1024_1_0_0_1_n_n.lhsIdx_val_of_single rfl (ix2 p q) _).trans hk)
  have er : dot_S256x1024_S1024x1024_S256x1024_1_0_0_1_n_n.rhsIdx (ix2 p q)
      ((contrEquiv1 dot_S256x1024_S1024x1024_S256x1024_1_0_0_1_n_n 1024 rfl rfl).symm k) = ix2 k q :=
    funext fun a => Fin.ext (by
      match a with
      | ⟨0, _⟩ => exact (dot_S256x1024_S1024x1024_S256x1024_1_0_0_1_n_n.rhsIdx_val_of_single rfl (ix2 p q) _).trans hk
      | ⟨1, _⟩ => exact mm_q_rhs1 _ _)
  rw [el, er]

theorem mm_s_lhs0 (j : S256x2048.Idx) (c : dot_S256x1024_S2048x1024_S256x2048_1_1_0_0_n_n.contr.Idx) :
    (dot_S256x1024_S2048x1024_S256x2048_1_1_0_0_n_n.lhsIdx j c 0).val = (j 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl

theorem mm_s_rhs0 (j : S256x2048.Idx) (c : dot_S256x1024_S2048x1024_S256x2048_1_1_0_0_n_n.contr.Idx) :
    (dot_S256x1024_S2048x1024_S256x2048_1_1_0_0_n_n.rhsIdx j c 0).val = (j 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl

/-- `[256, 1024] · [2048, 1024]ᵀ`, contracting the columns of both operands: entry `(p, q)` pairs row `p` of the left with row `q` of the right. -/
theorem mm_s_apply (l : FVec Ideal S256x1024 .bf16) (r : FVec Ideal S2048x1024 .bf16) (p : Fin 256) (q : Fin 2048) :
    matmul dot_S256x1024_S2048x1024_S256x2048_1_1_0_0_n_n none l r (constant (F := Ideal) S256x2048 .f32 0x00000000#32) (ix2 p q)
      = ∑ d : Fin 1024, l (ix2 p d) * r (ix2 q d) := by
  simp only [matmul]
  rw [Ideal.matmul_constant_zero_apply,
    ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q)
      ((contrEquiv1 dot_S256x1024_S2048x1024_S256x2048_1_1_0_0_n_n 1024 rfl rfl).symm k) = ix2 p k :=
    funext fun a => Fin.ext (by
      match a with
      | ⟨0, _⟩ => exact mm_s_lhs0 _ _
      | ⟨1, _⟩ => exact (dot_S256x1024_S2048x1024_S256x2048_1_1_0_0_n_n.lhsIdx_val_of_single rfl (ix2 p q) _).trans hk)
  have er : dot_S256x1024_S2048x1024_S256x2048_1_1_0_0_n_n.rhsIdx (ix2 p q)
      ((contrEquiv1 dot_S256x1024_S2048x1024_S256x2048_1_1_0_0_n_n 1024 rfl rfl).symm k) = ix2 q k :=
    funext fun a => Fin.ext (by
      match a with
      | ⟨1, _⟩ => exact (dot_S256x1024_S2048x1024_S256x2048_1_1_0_0_n_n.rhsIdx_val_of_single rfl (ix2 p q) _).trans hk
      | ⟨0, _⟩ => exact mm_s_rhs0 _ _)
  rw [el, er]

theorem mm_c_lhs0 (j : S256x1024.Idx) (c : dot_S256x2048_S2048x1024_S256x1024_1_0_0_1_n_n.contr.Idx) :
    (dot_S256x2048_S2048x1024_S256x1024_1_0_0_1_n_n.lhsIdx j c 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

theorem mm_c_rhs1 (j : S256x1024.Idx) (c : dot_S256x2048_S2048x1024_S256x1024_1_0_0_1_n_n.contr.Idx) :
    (dot_S256x2048_S2048x1024_S256x1024_1_0_0_1_n_n.rhsIdx j c 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- `[256, 2048] · [2048, 1024]`, contracting the left operand's columns with the right operand's rows. -/
theorem mm_c_apply (l : FVec Ideal S256x2048 .bf16) (r : FVec Ideal S2048x1024 .bf16) (p : Fin 256) (q : Fin 1024) :
    matmul dot_S256x2048_S2048x1024_S256x1024_1_0_0_1_n_n none l r (constant (F := Ideal) S256x1024 .f32 0x00000000#32) (ix2 p q)
      = ∑ d : Fin 2048, l (ix2 p d) * r (ix2 d q) := by
  simp only [matmul]
  rw [Ideal.matmul_constant_zero_apply,
    ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q)
      ((contrEquiv1 dot_S256x2048_S2048x1024_S256x1024_1_0_0_1_n_n 2048 rfl rfl).symm k) = ix2 p k :=
    funext fun a => Fin.ext (by
      match a with
      | ⟨0, _⟩ => exact mm_c_lhs0 _ _
      | ⟨1, _⟩ => exact (dot_S256x2048_S2048x1024_S256x1024_1_0_0_1_n_n.lhsIdx_val_of_single rfl (ix2 p q) _).trans hk)
  have er : dot_S256x2048_S2048x1024_S256x1024_1_0_0_1_n_n.rhsIdx (ix2 p q)
      ((contrEquiv1 dot_S256x2048_S2048x1024_S256x1024_1_0_0_1_n_n 2048 rfl rfl).symm k) = ix2 k q :=
    funext fun a => Fin.ext (by
      match a with
      | ⟨0, _⟩ => exact (dot_S256x2048_S2048x1024_S256x1024_1_0_0_1_n_n.rhsIdx_val_of_single rfl (ix2 p q) _).trans hk
      | ⟨1, _⟩ => exact mm_c_rhs1 _ _)
  rw [el, er]

/-! ## A row reduction of a `[256, 2048]` array, at row `r` -/

/-- The row maximum from the accumulator's value: the fold of `max` over the row's 2048 entries. -/
theorem rowMax_apply (src : FVec Ideal S256x2048 .f32) (h : S256x2048.Reduces [(1 : Fin 2)] S256) (hφ : FKind.Formats .f32)
    (hacc : (0xFF800000#32 : BitVec 32) = FKind.maximumf.neutral .f32 hφ) (r : Fin 256) :
    multiReduction .maximumf [(1 : Fin 2)] S256 src 0xFF800000#32 h hφ hacc (ix1 r)
      = (Finset.univ : Finset (Fin 2048)).fold max (FloatOps.ofBits (F := Ideal) .f32 0xFF800000#32) fun k => src (ix2 r k) :=
  (Ideal.multiReduction_maximumf_single src 0xFF800000#32 h hφ hacc (ix1 r)).trans
    (congrArg (fun f => Finset.fold max (FloatOps.ofBits (F := Ideal) .f32 0xFF800000#32) f (Finset.univ : Finset (Fin 2048)))
      (funext fun k => congrArg src (funext fun ax => Fin.ext (by
        match ax with
        | ⟨0, _⟩ => rfl
        | ⟨1, _⟩ => rfl))))

/-- The row sum from the zero accumulator: the sum of the row's 2048 entries. -/
theorem rowSum_apply (src : FVec Ideal S256x2048 .f32) (h : S256x2048.Reduces [(1 : Fin 2)] S256) (hφ : FKind.Formats .f32)
    (hacc : (0x00000000#32 : BitVec 32) = FKind.add.neutral .f32 hφ) (r : Fin 256) :
    multiReduction .add [(1 : Fin 2)] S256 src 0x00000000#32 h hφ hacc (ix1 r) = ∑ k : Fin 2048, src (ix2 r k) :=
  (Ideal.multiReduction_add_single src 0x00000000#32 h hφ hacc (ix1 r)).trans
    (Finset.sum_congr rfl fun k _ => congrArg src (funext fun ax => Fin.ext (by
      match ax with
      | ⟨0, _⟩ => rfl
      | ⟨1, _⟩ => rfl)))

/-- A row statistic kept as a column and spread back over the row: at `(r, k)` it is the statistic of row `r`. -/
theorem keepdims_apply (v : FVec Ideal S256 .f32) (hc : S256.ShapeCasts S256x1) (hb : S256x1.Broadcasts S256x2048)
    (r : Fin 256) (k : Fin 2048) :
    broadcastTo S256x2048 (shapeCast S256x1 v hc) hb (ix2 r k) = v (ix1 r) :=
  (Cert.LibKeepdims.broadcastTo_a1_ab_apply (shapeCast S256x1 v hc) hb r k).trans
    (Cert.LibKeepdims.shapeCast_a_a1_apply v hc r (0 : Fin 1))

/-! ## The softmax of a `[256, 2048]` tile of scores, row by row -/

section Softmax

variable (s : FVec Ideal S256x2048 .f32) (h : S256x2048.Reduces [(1 : Fin 2)] S256) (hφ : FKind.Formats .f32)
  (hmx : (0xFF800000#32 : BitVec 32) = FKind.maximumf.neutral .f32 hφ)
  (had : (0x00000000#32 : BitVec 32) = FKind.add.neutral .f32 hφ)
  (hc : S256.ShapeCasts S256x1) (hb : S256x1.Broadcasts S256x2048)

/-- The row maximum spread over the row is, at `(r, k)`, the largest score of row `r`. -/
theorem tile_max_apply (r : Fin 256) (k : Fin 2048) :
    (broadcastTo S256x2048 (shapeCast S256x1 (multiReduction .maximumf [(1 : Fin 2)] S256 s 0xFF800000#32 h hφ hmx) hc) hb) (ix2 r k)
      = Cert.Attn.smax fun k' => s (ix2 r k') :=
  (keepdims_apply _ hc hb r k).trans (rowMax_apply s h hφ hmx r)

/-- The exponentials of the scores less their row's maximum. -/
theorem tile_exp_apply (r : Fin 256) (k : Fin 2048) :
    (exp (subf s (broadcastTo S256x2048 (shapeCast S256x1 (multiReduction .maximumf [(1 : Fin 2)] S256 s 0xFF800000#32 h hφ hmx) hc) hb))) (ix2 r k)
      = Cert.Attn.pexp (fun k' => s (ix2 r k')) k :=
  congrArg (fun m => Ideal.exp (s (ix2 r k) - m)) (tile_max_apply s h hφ hmx hc hb r k)

/-- The row sum of the exponentials spread over the row. -/
theorem tile_sum_apply (r : Fin 256) (k : Fin 2048) :
    (broadcastTo S256x2048 (shapeCast S256x1 (multiReduction .add [(1 : Fin 2)] S256 (exp (subf s (broadcastTo S256x2048 (shapeCast S256x1 (multiReduction .maximumf [(1 : Fin 2)] S256 s 0xFF800000#32 h hφ hmx) hc) hb))) 0x00000000#32 h hφ had) hc) hb) (ix2 r k)
      = ∑ k' : Fin 2048, Cert.Attn.pexp (fun k'' => s (ix2 r k'')) k' :=
  (keepdims_apply _ hc hb r k).trans ((rowSum_apply _ h hφ had r).trans
    (Finset.sum_congr rfl fun k' _ => tile_exp_apply s h hφ hmx hc hb r k'))

/-- Their quotient: the softmax of row `r`'s scores at `k`. -/
theorem tile_softmax_apply (r : Fin 256) (k : Fin 2048) :
    divf (exp (subf s (broadcastTo S256x2048 (shapeCast S256x1 (multiReduction .maximumf [(1 : Fin 2)] S256 s 0xFF800000#32 h hφ hmx) hc) hb))) (broadcastTo S256x2048 (shapeCast S256x1 (multiReduction .add [(1 : Fin 2)] S256 (exp (subf s (broadcastTo S256x2048 (shapeCast S256x1 (multiReduction .maximumf [(1 : Fin 2)] S256 s 0xFF800000#32 h hφ hmx) hc) hb))) 0x00000000#32 h hφ had) hc) hb) (ix2 r k)
      = Cert.Attn.softmax (fun k' => s (ix2 r k')) k := by
  show Ideal.div ((exp (subf s (broadcastTo S256x2048 (shapeCast S256x1 (multiReduction .maximumf [(1 : Fin 2)] S256 s 0xFF800000#32 h hφ hmx) hc) hb))) (ix2 r k)) ((broadcastTo S256x2048 (shapeCast S256x1 (multiReduction .add [(1 : Fin 2)] S256 (exp (subf s (broadcastTo S256x2048 (shapeCast S256x1 (multiReduction .maximumf [(1 : Fin 2)] S256 s 0xFF800000#32 h hφ hmx) hc) hb))) 0x00000000#32 h hφ had) hc) hb) (ix2 r k)) = _
  rw [tile_exp_apply s h hφ hmx hc hb r k, tile_sum_apply s h hφ hmx had hc hb r k]
  rfl

end Softmax

/-! ## The first body: the key and value projections -/

/-- The first body's rounded block is the loaded block itself: a cast to the same shape and an identity rounding. -/
theorem kv_pay1_apply (x0 : Vec Ideal S1024x1024 .f32) (j : S1024x1024.Idx) : k0_pay1 (F := Ideal) x0 j = x0 j := by
  unfold k0_pay1
  rw [shapeCast_self]
  rfl

/-- The key projection at `(p, q)`: row `p` of the loaded block through the loaded matrix. -/
theorem kv_pay2_apply (x0 : Vec Ideal S1024x1024 .f32) (x1 : Vec Ideal S1024x1024 .bf16) (p q : Fin 1024) :
    k0_pay2 (F := Ideal) x0 x1 (ix2 p q) = Cert.Attn.proj (fun d => x0 (ix2 p d)) (fun d e => x1 (ix2 d e)) q := by
  unfold k0_pay2
  rw [shapeCast_self]
  refine (mm_sq_apply (k0_pay1 (F := Ideal) x0) x1 p q).trans ?_
  unfold Cert.Attn.proj
  exact Finset.sum_congr rfl fun d _ => congrArg (· * x1 (ix2 d q)) (kv_pay1_apply x0 (ix2 p d))

/-- The value projection at `(p, q)`: the same with the other matrix. -/
theorem kv_pay3_apply (x0 : Vec Ideal S1024x1024 .f32) (x2 : Vec Ideal S1024x1024 .bf16) (p q : Fin 1024) :
    k0_pay3 (F := Ideal) x0 x2 (ix2 p q) = Cert.Attn.proj (fun d => x0 (ix2 p d)) (fun d e => x2 (ix2 d e)) q := by
  unfold k0_pay3
  rw [shapeCast_self]
  refine (mm_sq_apply (k0_pay1 (F := Ideal) x0) x2 p q).trans ?_
  unfold Cert.Attn.proj
  exact Finset.sum_congr rfl fun d _ => congrArg (· * x2 (ix2 d q)) (kv_pay1_apply x0 (ix2 p d))

/-! ## The second body: the attention weights and the projected output of a tile of 256 query rows -/

section Attention

variable (x0 : Vec Ideal S1x256x1024 .f32) (x1 : Vec Ideal S1024x1024 .bf16) (x2 x3 : Vec Ideal S1x2048x1024 .bf16)
  (x4 : Vec Ideal S1024x1024 .bf16)

/-- The projected query tile at `(r, e)`: query row `r` through the query matrix. -/
theorem q_tile_apply (h0 : S1x256x1024.ShapeCasts S256x1024) (h1 : S1024x1024.ShapeCasts S1024x1024)
    (hlt : FTy.bits .bf16 < FTy.bits .f32) (r : Fin 256) (e : Fin 1024) :
    (truncf .bf16 (matmul dot_S256x1024_S1024x1024_S256x1024_1_0_0_1_n_n none (truncf .bf16 (shapeCast S256x1024 x0 h0 : FVec Ideal S256x1024 .f32) hlt) (shapeCast S1024x1024 x1 h1 : FVec Ideal S1024x1024 .bf16) (constant (F := Ideal) S256x1024 .f32 0x00000000#32)) hlt : FVec Ideal S256x1024 .bf16) (ix2 r e)
      = Cert.Attn.proj (fun d => x0 (ix3 (0 : Fin 1) r d)) (fun d e => x1 (ix2 d e)) e := by
  refine (mm_q_apply (truncf .bf16 (shapeCast S256x1024 x0 h0 : FVec Ideal S256x1024 .f32) hlt) (shapeCast S1024x1024 x1 h1 : FVec Ideal S1024x1024 .bf16) r e).trans ?_
  unfold Cert.Attn.proj
  refine Finset.sum_congr rfl fun d _ => ?_
  rw [shapeCast_self]
  exact congrArg (· * x1 (ix2 d e)) (shapeCast_1ab_ab_apply x0 h0 r d)

/-- The scaled score tile at `(r, k)`: the projected query row `r` against key row `k`, times 2⁻⁵. -/
theorem score_tile_apply (h0 : S1x256x1024.ShapeCasts S256x1024) (h1 : S1024x1024.ShapeCasts S1024x1024)
    (h2 : S1x2048x1024.ShapeCasts S2048x1024) (hlt : FTy.bits .bf16 < FTy.bits .f32) (r : Fin 256) (k : Fin 2048) :
    (mulf (matmul dot_S256x1024_S2048x1024_S256x2048_1_1_0_0_n_n none (truncf .bf16 (matmul dot_S256x1024_S1024x1024_S256x1024_1_0_0_1_n_n none (truncf .bf16 (shapeCast S256x1024 x0 h0 : FVec Ideal S256x1024 .f32) hlt) (shapeCast S1024x1024 x1 h1 : FVec Ideal S1024x1024 .bf16) (constant (F := Ideal) S256x1024 .f32 0x00000000#32)) hlt : FVec Ideal S256x1024 .bf16) (shapeCast S2048x1024 x2 h2 : FVec Ideal S2048x1024 .bf16) (constant (F := Ideal) S256x2048 .f32 0x00000000#32)) (broadcast S256x2048 (Scalar.ofBits (F := Ideal) .f32 0x3D000000#32))) (ix2 r k)
      = Cert.Attn.score (Cert.Attn.proj (fun d => x0 (ix3 (0 : Fin 1) r d)) (fun d e => x1 (ix2 d e))) (fun k' e => x2 (ix3 (0 : Fin 1) k' e)) k := by
  show (matmul dot_S256x1024_S2048x1024_S256x2048_1_1_0_0_n_n none (truncf .bf16 (matmul dot_S256x1024_S1024x1024_S256x1024_1_0_0_1_n_n none (truncf .bf16 (shapeCast S256x1024 x0 h0 : FVec Ideal S256x1024 .f32) hlt) (shapeCast S1024x1024 x1 h1 : FVec Ideal S1024x1024 .bf16) (constant (F := Ideal) S256x1024 .f32 0x00000000#32)) hlt : FVec Ideal S256x1024 .bf16) (shapeCast S2048x1024 x2 h2 : FVec Ideal S2048x1024 .bf16) (constant (F := Ideal) S256x2048 .f32 0x00000000#32)) (ix2 r k) * Ideal.ofBits .f32 0x3D000000#32 = _
  unfold Cert.Attn.score Cert.Attn.scale
  refine congrArg (· * Ideal.ofBits .f32 0x3D000000#32) ?_
  refine (mm_s_apply (truncf .bf16 (matmul dot_S256x1024_S1024x1024_S256x1024_1_0_0_1_n_n none (truncf .bf16 (shapeCast S256x1024 x0 h0 : FVec Ideal S256x1024 .f32) hlt) (shapeCast S1024x1024 x1 h1 : FVec Ideal S1024x1024 .bf16) (constant (F := Ideal) S256x1024 .f32 0x00000000#32)) hlt : FVec Ideal S256x1024 .bf16) (shapeCast S2048x1024 x2 h2 : FVec Ideal S2048x1024 .bf16) r k).trans ?_
  exact Finset.sum_congr rfl fun e _ =>
    congrArg₂ (· * ·) (q_tile_apply x0 x1 h0 h1 hlt r e) (shapeCast_1ab_ab_apply x2 h2 k e)

/-- The weights tile at `(r, k)`: the attention weights of query row `r`. -/
theorem attn_pay2_apply (r : Fin 256) (k : Fin 2048) :
    k1_pay2 (F := Ideal) x0 x1 x2 (ix2 r k)
      = Cert.Attn.weights (fun d => x0 (ix3 (0 : Fin 1) r d)) (fun d e => x1 (ix2 d e)) (fun k' e => x2 (ix3 (0 : Fin 1) k' e)) k := by
  unfold k1_pay2
  refine (tile_softmax_apply _ _ _ _ _ _ _ r k).trans ?_
  unfold Cert.Attn.weights
  exact congrArg (fun s => Cert.Attn.softmax s k) (funext fun k' => score_tile_apply x0 x1 x2 _ _ _ _ r k')

/-- The second result's block: the weights tile with a leading unit axis. -/
theorem attn_pay3_apply (u : Fin 1) (r : Fin 256) (k : Fin 2048) :
    k1_pay3 (F := Ideal) x0 x1 x2 (ix3 u r k)
      = Cert.Attn.weights (fun d => x0 (ix3 (0 : Fin 1) r d)) (fun d e => x1 (ix2 d e)) (fun k' e => x2 (ix3 (0 : Fin 1) k' e)) k := by
  unfold k1_pay3
  exact (shapeCast_ab_1ab_apply _ _ u r k).trans (attn_pay2_apply x0 x1 x2 r k)

/-- The output tile at `(r, f)`: the weighted value rows of query row `r` through the output matrix. -/
theorem attn_pay4_apply (r : Fin 256) (f : Fin 1024) :
    k1_pay4 (F := Ideal) x0 x1 x2 x3 x4 (ix2 r f)
      = Cert.Attn.output (fun d => x0 (ix3 (0 : Fin 1) r d)) (fun d e => x1 (ix2 d e)) (fun k' e => x2 (ix3 (0 : Fin 1) k' e)) (fun k' e => x3 (ix3 (0 : Fin 1) k' e)) (fun d e => x4 (ix2 d e)) f := by
  unfold k1_pay4
  refine (mm_q_apply _ _ r f).trans ?_
  unfold Cert.Attn.output Cert.Attn.proj
  refine Finset.sum_congr rfl fun e _ => ?_
  rw [shapeCast_self]
  refine congrArg (· * x4 (ix2 e f)) ?_
  refine (mm_c_apply _ _ r e).trans ?_
  unfold Cert.Attn.context
  exact Finset.sum_congr rfl fun k _ =>
    congrArg₂ (· * ·) (attn_pay2_apply x0 x1 x2 r k) (shapeCast_1ab_ab_apply x3 _ k e)

/-- The first result's block: the output tile with a leading unit axis. -/
theorem attn_pay1_apply (u : Fin 1) (r : Fin 256) (f : Fin 1024) :
    k1_pay1 (F := Ideal) (k1_pay4 x0 x1 x2 x3 x4) (ix3 u r f)
      = Cert.Attn.output (fun d => x0 (ix3 (0 : Fin 1) r d)) (fun d e => x1 (ix2 d e)) (fun k' e => x2 (ix3 (0 : Fin 1) k' e)) (fun k' e => x3 (ix3 (0 : Fin 1) k' e)) (fun d e => x4 (ix2 d e)) f := by
  unfold k1_pay1
  exact (shapeCast_ab_1ab_apply _ _ u r f).trans (attn_pay4_apply x0 x1 x2 x3 x4 r f)

end Attention

end Cert.KernelIdeal.Pay

end
-- ==== Proof.KVArray.lean ====
/-
  The first region's two results as whole arrays.

  The first region walks the flattened context `[16384, 1024]` in 16 blocks of 1024 rows; at block `t` it multiplies the
  block by `Wk` and by `Wv` (each whole at every point) and writes the two products to block `t` of its two results. Row
  `p` of block `t` is row `t · 1024 + p` of the array, the 16 blocks tile the 16384 rows, so each result ends holding, at
  `(r, e)`, the sum over `d` of the context's `(r, d)` times the matrix's `(d, e)`: every row projected.
-/
import proofs.«130944_j86835648791168_2_alg».proof.Proof.Gen.KernelIdeal.Frame
import proofs.«130944_j86835648791168_2_alg».proof.Proof.Spec
import proofs.«130944_j86835648791168_2_alg».proof.Proof.Payload
import Idealize.ShloMosaic.Lib.Pipeline.Value
import Idealize.ShloMosaic.Lib.ValueIdx

set_option maxRecDepth 16384

noncomputable section

namespace Cert.KernelIdeal.KVArray

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every row of the flattened context through a 1024 × 1024 matrix. -/
def projG (A : S16384x1024.Idx → EReal) (W : S1024x1024.Idx → EReal) : S16384x1024.Idx → EReal :=
  fun i => Cert.Attn.proj (fun d => A (ix2 (i 0) d)) (fun d e => W (ix2 d e)) (i 1)

theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15
    ∧ win0_4.index t (0 : Fin 2) = win0_3.index t (0 : Fin 2) ∧ win0_4.index t (1 : Fin 2) = 0 :=
  (by decide +kernel : ∀ t : Fin grid0.N, _)

theorem idx_onto : ∀ q0 : Fin 16, ∃ t : Fin cfg0.N, win0_3.index t = ![q0.val, 0] :=
  (by decide +kernel : ∀ q0 : Fin 16, ∃ t : Fin grid0.N, win0_3.index t = ![q0.val, 0])

theorem flushed3_eq (c : Dev nD) (t : Fin cfg0.N) :
    (dat0 V c).flushed 3 t = ((cfg0.win 3).blk t).view.read (Elt Ideal) (projG (V c main_v0) (V c main_v2)) := by
  show (cfg0.win 3).cut (grid0.coords t) ((dat0 V c).after 3 t) = _
  rw [after0_3]
  unfold out0_3
  rw [View.canon_unit_zero hz]
  simp only [View.ld_unit_zero (S := S1024x1024) hz]
  obtain ⟨e0, e1, e2, e3, e4, e5, e6, e7, e8, e9⟩ := idx_facts t
  refine funext fun (y : S1024x1024.Idx) => ?_
  obtain ⟨p, q, rfl⟩ : ∃ (p q : Fin 1024), y = ix2 p q := ⟨y 0, y 1, eq_ix2 y⟩
  have hp := p.isLt
  have hq := q.isLt
  let r : Fin 16384 := ⟨win0_3.index t (0 : Fin 2) * 1024 + p.val, by omega⟩
  have hemb3 : ((cfg0.win 3).blk t).view.emb (ix2 p q) = ix2 r q := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1024 + 1 * q.val = q.val; omega
  have hemb0 : ∀ d : Fin 1024, ((cfg0.win 0).blk t).view.emb (ix2 p d) = ix2 r d := fun d => by
    funext a; apply Fin.ext
    match a with
    | ⟨0, _⟩ => show win0_0.index t (0 : Fin 2) * 1024 + 1 * p.val = win0_3.index t (0 : Fin 2) * 1024 + p.val; omega
    | ⟨1, _⟩ => show win0_0.index t (1 : Fin 2) * 1024 + 1 * d.val = d.val; omega
  have hemb1 : ∀ d e : Fin 1024, ((cfg0.win 1).blk t).view.emb (ix2 d e) = ix2 d e := fun d e => by
    funext a; apply Fin.ext
    match a with
    | ⟨0, _⟩ => show win0_1.index t (0 : Fin 2) * 1024 + 1 * d.val = d.val; omega
    | ⟨1, _⟩ => show win0_1.index t (1 : Fin 2) * 1024 + 1 * e.val = e.val; omega
  show k0_pay2 (F := Ideal) (iblk0 V c 0 t) (iblk0 V c 1 t) (ix2 p q)
    = projG (V c main_v0) (V c main_v2) (((cfg0.win 3).blk t).view.emb (ix2 p q))
  refine (Pay.kv_pay2_apply (iblk0 V c 0 t) (iblk0 V c 1 t) p q).trans ?_
  rw [hemb3]
  show Cert.Attn.proj (fun d => V c main_v0 (((cfg0.win 0).blk t).view.emb (ix2 p d)))
      (fun d e => V c main_v2 (((cfg0.win 1).blk t).view.emb (ix2 d e))) q
    = Cert.Attn.proj (fun d => V c main_v0 (ix2 r d)) (fun d e => V c main_v2 (ix2 d e)) q
  simp only [hemb0, hemb1]

theorem mem_blk3 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5_0).slice (win0_3.rect t)).set ↔ _
  rw [View.set_slice_whole, Rect.mem_set_unit]
  exact Iff.rfl

theorem cover3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The key rows after the first region: every row of the flattened context through `Wk`. -/
theorem final3 (c : Dev nD) : (dat0 V c).arrAt 3 cfg0.N = projG (V c main_v0) (V c main_v2) :=
  (dat0 V c).arrAt_eq_of_cover 3 (projG (V c main_v0) (V c main_v2)) (fun t _ => flushed3_eq V c t) cover3

theorem flushed4_eq (c : Dev nD) (t : Fin cfg0.N) :
    (dat0 V c).flushed 4 t = ((cfg0.win 4).blk t).view.read (Elt Ideal) (projG (V c main_v0) (V c main_v3)) := by
  show (cfg0.win 4).cut (grid0.coords t) ((dat0 V c).after 4 t) = _
  rw [after0_4]
  unfold out0_4
  rw [View.canon_unit_zero hz]
  simp only [View.ld_unit_zero (S := S1024x1024) hz]
  obtain ⟨e0, e1, e2, e3, e4, e5, e6, e7, e8, e9⟩ := idx_facts t
  refine funext fun (y : S1024x1024.Idx) => ?_
  obtain ⟨p, q, rfl⟩ : ∃ (p q : Fin 1024), y = ix2 p q := ⟨y 0, y 1, eq_ix2 y⟩
  have hp := p.isLt
  have hq := q.isLt
  let r : Fin 16384 := ⟨win0_3.index t (0 : Fin 2) * 1024 + p.val, by omega⟩
  have hemb4 : ((cfg0.win 4).blk t).view.emb (ix2 p q) = ix2 r q := by
    funext a; apply Fin.ext
    match a with
    | ⟨0, _⟩ => show win0_4.index t (0 : Fin 2) * 1024 + 1 * p.val = win0_3.index t (0 : Fin 2) * 1024 + p.val; omega
    | ⟨1, _⟩ => show win0_4.index t (1 : Fin 2) * 1024 + 1 * q.val = q.val; omega
  have hemb0 : ∀ d : Fin 1024, ((cfg0.win 0).blk t).view.emb (ix2 p d) = ix2 r d := fun d => by
    funext a; apply Fin.ext
    match a with
    | ⟨0, _⟩ => show win0_0.index t (0 : Fin 2) * 1024 + 1 * p.val = win0_3.index t (0 : Fin 2) * 1024 + p.val; omega
    | ⟨1, _⟩ => show win0_0.index t (1 : Fin 2) * 1024 + 1 * d.val = d.val; omega
  have hemb2 : ∀ d e : Fin 1024, ((cfg0.win 2).blk t).view.emb (ix2 d e) = ix2 d e := fun d e => by
    funext a; apply Fin.ext
    match a with
    | ⟨0, _⟩ => show win0_2.index t (0 : Fin 2) * 1024 + 1 * d.val = d.val; omega
    | ⟨1, _⟩ => show win0_2.index t (1 : Fin 2) * 1024 + 1 * e.val = e.val; omega
  show k0_pay3 (F := Ideal) (iblk0 V c 0 t) (iblk0 V c 2 t) (ix2 p q)
    = projG (V c main_v0) (V c main_v3) (((cfg0.win 4).blk t).view.emb (ix2 p q))
  refine (Pay.kv_pay3_apply (iblk0 V c 0 t) (iblk0 V c 2 t) p q).trans ?_
  rw [hemb4]
  show Cert.Attn.proj (fun d => V c main_v0 (((cfg0.win 0).blk t).view.emb (ix2 p d)))
      (fun d e => V c main_v3 (((cfg0.win 2).blk t).view.emb (ix2 d e))) q
    = Cert.Attn.proj (fun d => V c main_v0 (ix2 r d)) (fun d e => V c main_v3 (ix2 d e)) q
  simp only [hemb0, hemb2]

theorem mem_blk4 (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5_1).slice (win0_4.rect t)).set ↔ _
  rw [View.set_slice_whole, Rect.mem_set_unit]
  exact Iff.rfl

theorem cover4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := idx_onto ⟨(i 0).val / 1024, by omega⟩
  obtain ⟨e0, e1, e2, e3, e4, e5, e6, e7, e8, e9⟩ := idx_facts t
  have q0 : win0_3.index t (0 : Fin 2) = (i 0).val / 1024 := congrFun ht 0
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The value rows after the first region: every row of the flattened context through `Wv`. -/
theorem final4 (c : Dev nD) : (dat0 V c).arrAt 4 cfg0.N = projG (V c main_v0) (V c main_v3) :=
  (dat0 V c).arrAt_eq_of_cover 4 (projG (V c main_v0) (V c main_v3)) (fun t _ => flushed4_eq V c t) cover4

end Cert.KernelIdeal.KVArray
end
-- ==== Proof.AttnArray.lean ====
/-
  The second region's two results as whole arrays.

  The second region walks 8 batches × 8 tiles of 256 query rows. At point `(b, j)` it reads rows `j · 256 …` of batch `b`
  of the input, all of `Wq` and `Wo`, and all 2048 key rows and value rows of batch `b`; it writes the tile's attention
  weights to rows `j · 256 …` of batch `b` of the weights array and the tile's projected output to the same rows of the
  output array. Row `r` of the tile is row `j · 256 + r` of the batch, the 64 tiles tile both arrays, and a row's
  attention depends only on that row, the two projections and its batch's keys and values. So each array ends holding,
  row by row, the row functions of `Proof/Spec.lean` of what the region found on entry.
-/
import proofs.«130944_j86835648791168_2_alg».proof.Proof.Gen.KernelIdeal.Frame
import proofs.«130944_j86835648791168_2_alg».proof.Proof.Spec
import proofs.«130944_j86835648791168_2_alg».proof.Proof.Payload
import Idealize.ShloMosaic.Lib.Pipeline.Value
import Idealize.ShloMosaic.Lib.ValueIdx

set_option maxRecDepth 16384

noncomputable section

namespace Cert.KernelIdeal.AttnArray

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The attention weights of every query row, from the inputs, the query projection and the key rows. -/
def weightsOf (X : S8x2048x1024.Idx → EReal) (Wq : S1024x1024.Idx → EReal) (K : S8x2048x1024.Idx → EReal) :
    S8x2048x2048.Idx → EReal :=
  fun i => Cert.Attn.weights (fun d => X (ix3 (i 0) (i 1) d)) (fun d e => Wq (ix2 d e)) (fun k e => K (ix3 (i 0) k e)) (i 2)

/-- The projected output of every query row, from the inputs, the projections and the key and value rows. -/
def outputOf (X : S8x2048x1024.Idx → EReal) (Wq : S1024x1024.Idx → EReal) (K Vv : S8x2048x1024.Idx → EReal)
    (Wo : S1024x1024.Idx → EReal) : S8x2048x1024.Idx → EReal :=
  fun i => Cert.Attn.output (fun d => X (ix3 (i 0) (i 1) d)) (fun d e => Wq (ix2 d e)) (fun k e => K (ix3 (i 0) k e))
    (fun k e => Vv (ix3 (i 0) k e)) (fun d e => Wo (ix2 d e)) (i 2)

theorem idx_facts : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 2) = 0 ∧ win1_1.index t (1 : Fin 2) = 0
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 2) = 0 ∧ win1_4.index t (1 : Fin 2) = 0
    ∧ win1_5.index t (2 : Fin 3) = 0 ∧ win1_5.index t (0 : Fin 3) ≤ 7 ∧ win1_5.index t (1 : Fin 3) ≤ 7
    ∧ win1_6.index t (0 : Fin 3) = win1_5.index t (0 : Fin 3) ∧ win1_6.index t (1 : Fin 3) = win1_5.index t (1 : Fin 3) ∧ win1_6.index t (2 : Fin 3) = 0 :=
  (by decide +kernel : ∀ t : Fin grid1.N, _)

theorem idx_onto : ∀ (q0 q1 : Fin 8), ∃ t : Fin cfg1.N, win1_5.index t = ![q0.val, q1.val, 0] :=
  (by decide +kernel : ∀ (q0 q1 : Fin 8), ∃ t : Fin grid1.N, win1_5.index t = ![q0.val, q1.val, 0])

theorem flushed5_eq (c : Dev nD) (t : Fin cfg1.N) :
    (dat1 V c).flushed 5 t = ((cfg1.win 5).blk t).view.read (Elt Ideal) (weightsOf (V c main_arg0) (V c main_v1) (V c main_v6)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1024x1024) hz2, View.ld_unit_zero (S := S1x2048x1024) hz3]
  obtain ⟨a0, a1, a2, b0, b1, c0, c1, c2, d0, d1, d2, f0, f1, g2, g0, g1, h0, h1, h2⟩ := idx_facts t
  refine funext fun (y : S1x256x2048.Idx) => ?_
  obtain ⟨u, r, k, rfl⟩ : ∃ (u : Fin 1) (r : Fin 256) (k : Fin 2048), y = ix3 u r k := ⟨y 0, y 1, y 2, eq_ix3 y⟩
  have hu : u.val = 0 := by omega
  have hr := r.isLt
  have hk := k.isLt
  let bb : Fin 8 := ⟨win1_5.index t (0 : Fin 3), by omega⟩
  let rr : Fin 2048 := ⟨win1_5.index t (1 : Fin 3) * 256 + r.val, by omega⟩
  have hemb5 : ((cfg1.win 5).blk t).view.emb (ix3 u r k) = ix3 bb rr k := by
    funext a; apply Fin.ext
    match a with
    | ⟨0, _⟩ => show win1_5.index t (0 : Fin 3) * 1 + 1 * u.val = win1_5.index t (0 : Fin 3); omega
    | ⟨1, _⟩ => show win1_5.index t (1 : Fin 3) * 256 + 1 * r.val = win1_5.index t (1 : Fin 3) * 256 + r.val; omega
    | ⟨2, _⟩ => show win1_5.index t (2 : Fin 3) * 2048 + 1 * k.val = k.val; omega
  have hemb0 : ∀ d : Fin 1024, ((cfg1.win 0).blk t).view.emb (ix3 (0 : Fin 1) r d) = ix3 bb rr d := fun d => by
    have hd := d.isLt
    funext a; apply Fin.ext
    match a with
    | ⟨0, _⟩ => show win1_0.index t (0 : Fin 3) * 1 + 1 * 0 = win1_5.index t (0 : Fin 3); omega
    | ⟨1, _⟩ => show win1_0.index t (1 : Fin 3) * 256 + 1 * r.val = win1_5.index t (1 : Fin 3) * 256 + r.val; omega
    | ⟨2, _⟩ => show win1_0.index t (2 : Fin 3) * 1024 + 1 * d.val = d.val; omega
  have hemb1 : ∀ d e : Fin 1024, ((cfg1.win 1).blk t).view.emb (ix2 d e) = ix2 d e := fun d e => by
    funext a; apply Fin.ext
    match a with
    | ⟨0, _⟩ => show win1_1.index t (0 : Fin 2) * 1024 + 1 * d.val = d.val; omega
    | ⟨1, _⟩ => show win1_1.index t (1 : Fin 2) * 1024 + 1 * e.val = e.val; omega
  have hemb2 : ∀ (k' : Fin 2048) (e : Fin 1024), ((cfg1.win 2).blk t).view.emb (ix3 (0 : Fin 1) k' e) = ix3 bb k' e := fun k' e => by
    funext a; apply Fin.ext
    match a with
    | ⟨0, _⟩ => show win1_2.index t (0 : Fin 3) * 1 + 1 * 0 = win1_5.index t (0 : Fin 3); omega
    | ⟨1, _⟩ => show win1_2.index t (1 : Fin 3) * 2048 + 1 * k'.val = k'.val; omega
    | ⟨2, _⟩ => show win1_2.index t (2 : Fin 3) * 1024 + 1 * e.val = e.val; omega
  show k1_pay3 (F := Ideal) (iblk1 V c 0 t) (iblk1 V c 1 t) (iblk1 V c 2 t) (ix3 u r k)
    = weightsOf (V c main_arg0) (V c main_v1) (V c main_v6) (((cfg1.win 5).blk t).view.emb (ix3 u r k))
  refine (Pay.attn_pay3_apply (iblk1 V c 0 t) (iblk1 V c 1 t) (iblk1 V c 2 t) u r k).trans ?_
  rw [hemb5]
  show Cert.Attn.weights (fun d => V c main_arg0 (((cfg1.win 0).blk t).view.emb (ix3 (0 : Fin 1) r d)))
      (fun d e => V c main_v1 (((cfg1.win 1).blk t).view.emb (ix2 d e)))
      (fun k' e => V c main_v6 (((cfg1.win 2).blk t).view.emb (ix3 (0 : Fin 1) k' e))) k
    = Cert.Attn.weights (fun d => V c main_arg0 (ix3 bb rr d)) (fun d e => V c main_v1 (ix2 d e))
      (fun k' e => V c main_v6 (ix3 bb k' e)) k
  simp only [hemb0, hemb1, hemb2]

theorem mem_blk5 (t : Fin cfg1.N) (i : S8x2048x2048.Idx) :
    i ∈ ((cfg1.win 5).blk t).view.set ↔ ∀ a : Fin 3, win1_5.index t a * S1x256x2048.size a ≤ (i a).val ∧ (i a).val < win1_5.index t a * S1x256x2048.size a + S1x256x2048.size a := by
  show i ∈ ((View.whole main_v8_0).slice (win1_5.rect t)).set ↔ _
  rw [View.set_slice_whole, Rect.mem_set_unit]
  exact Iff.rfl

theorem cover5 (i : S8x2048x2048.Idx) :
    ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, by omega⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 2048 ≤ (i 2).val ∧ (i 2).val < win1_5.index t (2 : Fin 3) * 2048 + 2048; omega

/-- The attention weights after the second region. -/
theorem final5 (c : Dev nD) :
    (dat1 V c).arrAt 5 cfg1.N = weightsOf (V c main_arg0) (V c main_v1) (V c main_v6) :=
  (dat1 V c).arrAt_eq_of_cover 5 (weightsOf (V c main_arg0) (V c main_v1) (V c main_v6)) (fun t _ => flushed5_eq V c t) cover5

theorem flushed6_eq (c : Dev nD) (t : Fin cfg1.N) :
    (dat1 V c).flushed 6 t = ((cfg1.win 6).blk t).view.read (Elt Ideal)
      (outputOf (V c main_arg0) (V c main_v1) (V c main_v6) (V c main_v7) (V c main_v4)) := by
  show (cfg1.win 6).cut (grid1.coords t) ((dat1 V c).after 6 t) = _
  rw [after1_6]
  unfold out1_6
  rw [View.canon_unit_zero hz3]
  simp only [View.ld_unit_zero (S := S1x256x1024) hz3, View.ld_unit_zero (S := S1024x1024) hz2, View.ld_unit_zero (S := S1x2048x1024) hz3]
  obtain ⟨a0, a1, a2, b0, b1, c0, c1, c2, d0, d1, d2, f0, f1, g2, g0, g1, h0, h1, h2⟩ := idx_facts t
  refine funext fun (y : S1x256x1024.Idx) => ?_
  obtain ⟨u, r, f, rfl⟩ : ∃ (u : Fin 1) (r : Fin 256) (f : Fin 1024), y = ix3 u r f := ⟨y 0, y 1, y 2, eq_ix3 y⟩
  have hu : u.val = 0 := by omega
  have hr := r.isLt
  have hf := f.isLt
  let bb : Fin 8 := ⟨win1_5.index t (0 : Fin 3), by omega⟩
  let rr : Fin 2048 := ⟨win1_5.index t (1 : Fin 3) * 256 + r.val, by omega⟩
  have hemb6 : ((cfg1.win 6).blk t).view.emb (ix3 u r f) = ix3 bb rr f := by
    funext a; apply Fin.ext
    match a with
    | ⟨0, _⟩ => show win1_6.index t (0 : Fin 3) * 1 + 1 * u.val = win1_5.index t (0 : Fin 3); omega
    | ⟨1, _⟩ => show win1_6.index t (1 : Fin 3) * 256 + 1 * r.val = win1_5.index t (1 : Fin 3) * 256 + r.val; omega
    | ⟨2, _⟩ => show win1_6.index t (2 : Fin 3) * 1024 + 1 * f.val = f.val; omega
  have hemb0 : ∀ d : Fin 1024, ((cfg1.win 0).blk t).view.emb (ix3 (0 : Fin 1) r d) = ix3 bb rr d := fun d => by
    funext a; apply Fin.ext
    match a with
    | ⟨0, _⟩ => show win1_0.index t (0 : Fin 3) * 1 + 1 * 0 = win1_5.index t (0 : Fin 3); omega
    | ⟨1, _⟩ => show win1_0.index t (1 : Fin 3) * 256 + 1 * r.val = win1_5.index t (1 : Fin 3) * 256 + r.val; omega
    | ⟨2, _⟩ => show win1_0.index t (2 : Fin 3) * 1024 + 1 * d.val = d.val; omega
  have hemb1 : ∀ d e : Fin 1024, ((cfg1.win 1).blk t).view.emb (ix2 d e) = ix2 d e := fun d e => by
    funext a; apply Fin.ext
    match a with
    | ⟨0, _⟩ => show win1_1.index t (0 : Fin 2) * 1024 + 1 * d.val = d.val; omega
    | ⟨1, _⟩ => show win1_1.index t (1 : Fin 2) * 1024 + 1 * e.val = e.val; omega
  have hemb2 : ∀ (k' : Fin 2048) (e : Fin 1024), ((cfg1.win 2).blk t).view.emb (ix3 (0 : Fin 1) k' e) = ix3 bb k' e := fun k' e => by
    funext a; apply Fin.ext
    match a with
    | ⟨0, _⟩ => show win1_2.index t (0 : Fin 3) * 1 + 1 * 0 = win1_5.index t (0 : Fin 3); omega
    | ⟨1, _⟩ => show win1_2.index t (1 : Fin 3) * 2048 + 1 * k'.val = k'.val; omega
    | ⟨2, _⟩ => show win1_2.index t (2 : Fin 3) * 1024 + 1 * e.val = e.val; omega
  have hemb3 : ∀ (k' : Fin 2048) (e : Fin 1024), ((cfg1.win 3).blk t).view.emb (ix3 (0 : Fin 1) k' e) = ix3 bb k' e := fun k' e => by
    funext a; apply Fin.ext
    match a with
    | ⟨0, _⟩ => show win1_3.index t (0 : Fin 3) * 1 + 1 * 0 = win1_5.index t (0 : Fin 3); omega
    | ⟨1, _⟩ => show win1_3.index t (1 : Fin 3) * 2048 + 1 * k'.val = k'.val; omega
    | ⟨2, _⟩ => show win1_3.index t (2 : Fin 3) * 1024 + 1 * e.val = e.val; omega
  have hemb4 : ∀ d e : Fin 1024, ((cfg1.win 4).blk t).view.emb (ix2 d e) = ix2 d e := fun d e => by
    funext a; apply Fin.ext
    match a with
    | ⟨0, _⟩ => show win1_4.index t (0 : Fin 2) * 1024 + 1 * d.val = d.val; omega
    | ⟨1, _⟩ => show win1_4.index t (1 : Fin 2) * 1024 + 1 * e.val = e.val; omega
  show k1_pay1 (F := Ideal) (k1_pay4 (iblk1 V c 0 t) (iblk1 V c 1 t) (iblk1 V c 2 t) (iblk1 V c 3 t) (iblk1 V c 4 t)) (ix3 u r f)
    = outputOf (V c main_arg0) (V c main_v1) (V c main_v6) (V c main_v7) (V c main_v4) (((cfg1.win 6).blk t).view.emb (ix3 u r f))
  refine (Pay.attn_pay1_apply (iblk1 V c 0 t) (iblk1 V c 1 t) (iblk1 V c 2 t) (iblk1 V c 3 t) (iblk1 V c 4 t) u r f).trans ?_
  rw [hemb6]
  show Cert.Attn.output (fun d => V c main_arg0 (((cfg1.win 0).blk t).view.emb (ix3 (0 : Fin 1) r d)))
      (fun d e => V c main_v1 (((cfg1.win 1).blk t).view.emb (ix2 d e)))
      (fun k' e => V c main_v6 (((cfg1.win 2).blk t).view.emb (ix3 (0 : Fin 1) k' e)))
      (fun k' e => V c main_v7 (((cfg1.win 3).blk t).view.emb (ix3 (0 : Fin 1) k' e)))
      (fun d e => V c main_v4 (((cfg1.win 4).blk t).view.emb (ix2 d e))) f
    = Cert.Attn.output (fun d => V c main_arg0 (ix3 bb rr d)) (fun d e => V c main_v1 (ix2 d e))
      (fun k' e => V c main_v6 (ix3 bb k' e)) (fun k' e => V c main_v7 (ix3 bb k' e)) (fun d e => V c main_v4 (ix2 d e)) f
  simp only [hemb0, hemb1, hemb2, hemb3, hemb4]

theorem mem_blk6 (t : Fin cfg1.N) (i : S8x2048x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v8_1).slice (win1_6.rect t)).set ↔ _
  rw [View.set_slice_whole, Rect.mem_set_unit]
  exact Iff.rfl

theorem cover6 (i : S8x2048x1024.Idx) :
    ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, by omega⟩ ⟨(i 1).val / 256, by omega⟩
  obtain ⟨a0, a1, a2, b0, b1, c0, c1, c2, d0, d1, d2, f0, f1, g2, g0, g1, h0, h1, h2⟩ := idx_facts t
  have q0 : win1_5.index t (0 : Fin 3) = (i 0).val := congrFun ht 0
  have q1 : win1_5.index t (1 : Fin 3) = (i 1).val / 256 := congrFun ht 1
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-- The projected output after the second region. -/
theorem final6 (c : Dev nD) :
    (dat1 V c).arrAt 6 cfg1.N = outputOf (V c main_arg0) (V c main_v1) (V c main_v6) (V c main_v7) (V c main_v4) :=
  (dat1 V c).arrAt_eq_of_cover 6 (outputOf (V c main_arg0) (V c main_v1) (V c main_v6) (V c main_v7) (V c main_v4))
    (fun t _ => flushed6_eq V c t) cover6

end Cert.KernelIdeal.AttnArray
end
-- ==== Proof.Values.lean ====
/-
  The kernel program's two results as functions of its arguments.

  The last boundary's contents at the two result buffers are what the second region's write-backs leave
  (`Proof/AttnArray.lean`), a function of what that region found on entry: the input, `Wq` and `Wo` as launched, and the
  key and value rows — the first region's two results cast back to three axes, that is (`Proof/KVArray.lean`,
  `Proof/HostVals.lean`) row `k` of batch `b` of the context through `Wk` and through `Wv`. Substituting, the two results
  are the specification's `Attn.outputG` and `Attn.weightsG` of the six arguments.
-/
import proofs.«130944_j86835648791168_2_alg».proof.Proof.Gen.KernelIdeal.Frame
import proofs.«130944_j86835648791168_2_alg».proof.Proof.Spec
import proofs.«130944_j86835648791168_2_alg».proof.Proof.HostVals
import proofs.«130944_j86835648791168_2_alg».proof.Proof.KVArray
import proofs.«130944_j86835648791168_2_alg».proof.Proof.AttnArray
import proofs.«130944_j86835648791168_2_alg».proof.Proof.LibRank3Layout
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The key rows the second region reads are the context's rows through `Wk`: row `k` of batch `b` is row
    `b · 2048 + k` of the first region's first result, itself that row of the flattened context projected. -/
theorem keys_apply (c : Dev nD) (b : Fin 8) (k : Fin 2048) (e : Fin 1024) :
    (V3 m ρ c main_v6 : S8x2048x1024.Idx → EReal) (ix3 b k e)
      = Cert.Attn.kv (m ((c : Thread nD τ).loc main_arg1)) (m ((c : Thread nD τ).loc main_arg3)) b k e := by
  have hb := b.isLt
  have hk := k.isLt
  let r : Fin 16384 := ⟨b.val * 2048 + k.val, by omega⟩
  rw [HostVals.V3_v6]
  refine (ValueLayout3.shapeCast_nc_abc_apply _ _ r b k e rfl).trans ?_
  rw [W2_arr m ρ c 3, KVArray.final3]
  show Cert.Attn.proj (fun d => (V1 m ρ c main_v0 : S16384x1024.Idx → EReal) (ix2 r d))
      (fun d e => (V1 m ρ c main_v2 : S1024x1024.Idx → EReal) (ix2 d e)) e = _
  rw [HostVals.V1_v2]
  simp only [HostVals.V1_v0_apply m ρ c b k _ r rfl]
  rfl

/-- The value rows likewise, through `Wv`. -/
theorem values_apply (c : Dev nD) (b : Fin 8) (k : Fin 2048) (e : Fin 1024) :
    (V3 m ρ c main_v7 : S8x2048x1024.Idx → EReal) (ix3 b k e)
      = Cert.Attn.kv (m ((c : Thread nD τ).loc main_arg1)) (m ((c : Thread nD τ).loc main_arg4)) b k e := by
  have hb := b.isLt
  have hk := k.isLt
  let r : Fin 16384 := ⟨b.val * 2048 + k.val, by omega⟩
  rw [HostVals.V3_v7]
  refine (ValueLayout3.shapeCast_nc_abc_apply _ _ r b k e rfl).trans ?_
  rw [W2_arr m ρ c 4, KVArray.final4]
  show Cert.Attn.proj (fun d => (V1 m ρ c main_v0 : S16384x1024.Idx → EReal) (ix2 r d))
      (fun d e => (V1 m ρ c main_v3 : S1024x1024.Idx → EReal) (ix2 d e)) e = _
  rw [HostVals.V1_v3]
  simp only [HostVals.V1_v0_apply m ρ c b k _ r rfl]
  rfl

/-- The second result: the attention weights of every query row, as a function of the arguments. -/
theorem weights_eq (c : Dev nD) :
    W4 m ρ c (Proc.devRef .tc main_v8_0)
      = Cert.Attn.weightsG (m ((c : Thread nD τ).loc main_arg0)) (m ((c : Thread nD τ).loc main_arg1))
          (m ((c : Thread nD τ).loc main_arg2)) (m ((c : Thread nD τ).loc main_arg3)) := by
  refine (W4_arr m ρ c 5).trans ?_
  rw [AttnArray.final5, HostVals.V3_arg0, HostVals.V3_v1]
  refine funext fun (i : S8x2048x2048.Idx) => ?_
  obtain ⟨b, q, k, rfl⟩ : ∃ (b : Fin 8) (q : Fin 2048) (k : Fin 2048), i = ix3 b q k := ⟨i 0, i 1, i 2, eq_ix3 i⟩
  show Cert.Attn.weights (fun d => m ((c : Thread nD τ).loc main_arg0) (ix3 b q d)) (fun d e => m ((c : Thread nD τ).loc main_arg2) (ix2 d e))
      (fun k' e => (V3 m ρ c main_v6 : S8x2048x1024.Idx → EReal) (ix3 b k' e)) k
    = Cert.Attn.weights (Cert.Attn.rowOf (m ((c : Thread nD τ).loc main_arg0)) b q) (Cert.Attn.mat (m ((c : Thread nD τ).loc main_arg2)))
      (Cert.Attn.kv (m ((c : Thread nD τ).loc main_arg1)) (m ((c : Thread nD τ).loc main_arg3)) b) k
  simp only [keys_apply m ρ c b]
  rfl

/-- The first result: the projected attention output of every query row, as a function of the arguments. -/
theorem output_eq (c : Dev nD) :
    W4 m ρ c (Proc.devRef .tc main_v8_1)
      = Cert.Attn.outputG (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W4_arr m ρ c 6).trans ?_
  rw [AttnArray.final6, HostVals.V3_arg0, HostVals.V3_v1, HostVals.V3_v4]
  refine funext fun (i : S8x2048x1024.Idx) => ?_
  obtain ⟨b, q, f, rfl⟩ : ∃ (b : Fin 8) (q : Fin 2048) (f : Fin 1024), i = ix3 b q f := ⟨i 0, i 1, i 2, eq_ix3 i⟩
  show Cert.Attn.output (fun d => m ((c : Thread nD τ).loc main_arg0) (ix3 b q d)) (fun d e => m ((c : Thread nD τ).loc main_arg2) (ix2 d e))
      (fun k' e => (V3 m ρ c main_v6 : S8x2048x1024.Idx → EReal) (ix3 b k' e))
      (fun k' e => (V3 m ρ c main_v7 : S8x2048x1024.Idx → EReal) (ix3 b k' e))
      (fun d e => m ((c : Thread nD τ).loc main_arg5) (ix2 d e)) f
    = Cert.Attn.output (Cert.Attn.rowOf (m ((c : Thread nD τ).loc main_arg0)) b q) (Cert.Attn.mat (m ((c : Thread nD τ).loc main_arg2)))
      (Cert.Attn.kv (m ((c : Thread nD τ).loc main_arg1)) (m ((c : Thread nD τ).loc main_arg3)) b)
      (Cert.Attn.kv (m ((c : Thread nD τ).loc main_arg1)) (m ((c : Thread nD τ).loc main_arg4)) b)
      (Cert.Attn.mat (m ((c : Thread nD τ).loc main_arg5))) f
  simp only [keys_apply m ρ c b, values_apply m ρ c b]
  rfl

end Cert.KernelIdeal.Values
end
-- ==== Proof.RefValue.lean ====
/-
  The reference program's two results are the specification's whole-array functions.

  The reference computes, for every batch `b` and query row `q`: three projections (sums over the 1024 model
  coordinates), the scores of the projected query against the projected keys times one over the square root of 1024,
  the row maximum from −∞ (taken once more against −∞, which changes nothing), the exponentials of the scores less
  that maximum, their sum from 0, the quotients, and then the weighted value rows through the output projection.
  Read index by index, each stage is the matching function of the specification at the coordinates `(b, q, ·)`:
  the sums meet term by term in the same nesting, the maximum is the same fold, and the two broadcasts of a kept
  axis read the row's value at `(b, q)`.
-/
import proofs.«130944_j86835648791168_2_alg».proof.Proof.Gen.ReferenceIdeal.Read
import proofs.«130944_j86835648791168_2_alg».proof.Proof.Spec
import Idealize.ShloMosaic.PureOps.Ideal.Laws
import Idealize.ShloMosaic.PureOps.Reduce
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- An activation array: batch × row × model coordinate. -/
abbrev Act : Type := (⟨S8x2048x1024, .f32⟩ : BufTy).Contents (Elt Ideal)
/-- A projection matrix. -/
abbrev Mat : Type := (⟨S1024x1024, .f32⟩ : BufTy).Contents (Elt Ideal)

/-! ## Indices by their coordinates -/

/-- A rank-3 index with the coordinates `a`, `b`, `c` is `ix3 a b c`. -/
theorem idx3_eq {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  match d with
  | ⟨0, _⟩ => exact Fin.ext h0
  | ⟨1, _⟩ => exact Fin.ext h1
  | ⟨2, _⟩ => exact Fin.ext h2

/-- A rank-2 index with the coordinates `a`, `b` is `ix2 a b`. -/
theorem idx2_eq {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-! ## The three projections -/

/-- The query projection at `(b, s, e)`: row `s` of batch `b` through the matrix. -/
theorem proj_q (x0 : Act) (x2 : Mat) (b : Fin 8) (s : Fin 2048) (e : Fin 1024) :
    val_main_v0 (F := Ideal) x0 x2 (ix3 b s e) = Cert.Attn.proj (Cert.Attn.rowOf x0 b s) (Cert.Attn.mat x2) e := by
  rw [val_main_v0_apply]
  unfold Cert.Attn.proj Cert.Attn.rowOf Cert.Attn.mat
  refine Finset.sum_congr rfl fun d _ => ?_
  rw [idx3_eq (lidx_main_v0 (ix3 b s e) d) b s d rfl rfl rfl, idx2_eq (ridx_main_v0 (ix3 b s e) d) d e rfl rfl]

/-- The key projection at `(b, k, e)`. -/
theorem proj_k (x1 : Act) (x3 : Mat) (b : Fin 8) (k : Fin 2048) (e : Fin 1024) :
    val_main_v1 (F := Ideal) x1 x3 (ix3 b k e) = Cert.Attn.kv x1 x3 b k e := by
  rw [val_main_v1_apply]
  unfold Cert.Attn.kv Cert.Attn.proj Cert.Attn.rowOf Cert.Attn.mat
  refine Finset.sum_congr rfl fun d _ => ?_
  rw [idx3_eq (lidx_main_v1 (ix3 b k e) d) b k d rfl rfl rfl, idx2_eq (ridx_main_v1 (ix3 b k e) d) d e rfl rfl]

/-- The value projection at `(b, k, e)`. -/
theorem proj_v (x1 : Act) (x4 : Mat) (b : Fin 8) (k : Fin 2048) (e : Fin 1024) :
    val_main_v2 (F := Ideal) x1 x4 (ix3 b k e) = Cert.Attn.kv x1 x4 b k e := by
  rw [val_main_v2_apply]
  unfold Cert.Attn.kv Cert.Attn.proj Cert.Attn.rowOf Cert.Attn.mat
  refine Finset.sum_congr rfl fun d _ => ?_
  rw [idx3_eq (lidx_main_v2 (ix3 b k e) d) b k d rfl rfl rfl, idx2_eq (ridx_main_v2 (ix3 b k e) d) d e rfl rfl]

/-! ## The scaled scores -/

/-- One over the square root of 1024, as the reference computes it, is the scale. -/
theorem scale_eq (i : S_.Idx) : val_main_v4 (F := Ideal) i = Cert.Attn.scale := by
  rw [val_main_v4_apply, val_main_cst_0_apply, val_main_v3_apply, val_main_cst_apply]
  exact Cert.Attn.one_div_sqrt_1024

/-- The projected query of row `(b, q)` against the projected key `k` of its batch. -/
theorem qk (x0 x1 : Act) (x2 x3 : Mat) (b : Fin 8) (q k : Fin 2048) :
    val_main_v5 (F := Ideal) x0 x1 x2 x3 (ix3 b q k)
      = ∑ e : Fin 1024, Cert.Attn.proj (Cert.Attn.rowOf x0 b q) (Cert.Attn.mat x2) e * Cert.Attn.kv x1 x3 b k e := by
  rw [val_main_v5_apply]
  refine Finset.sum_congr rfl fun e _ => ?_
  rw [idx3_eq (lidx_main_v5 (ix3 b q k) e) b q e rfl rfl rfl, idx3_eq (ridx_main_v5 (ix3 b q k) e) b k e rfl rfl rfl,
    proj_q, proj_k]

/-- The score row of query row `(b, q)`. -/
abbrev scoreRow (x0 x1 : Act) (x2 x3 : Mat) (b : Fin 8) (q : Fin 2048) : Fin 2048 → EReal :=
  Cert.Attn.score (Cert.Attn.proj (Cert.Attn.rowOf x0 b q) (Cert.Attn.mat x2)) (Cert.Attn.kv x1 x3 b)

/-- The scaled score at `(b, q, k)`. -/
theorem score_eq (x0 x1 : Act) (x2 x3 : Mat) (b : Fin 8) (q k : Fin 2048) :
    val_main_v7 (F := Ideal) x0 x1 x2 x3 (ix3 b q k) = scoreRow x0 x1 x2 x3 b q k := by
  rw [val_main_v7_apply, val_main_v6_apply, scale_eq, qk]
  rfl

/-! ## The row maximum -/

/-- A maximum-reduction over the last axis from −∞ is, at `(b, q)`, the fold of `max` from −∞ over the row's entries. -/
theorem rowMax (y : (⟨S8x2048x2048, .f32⟩ : BufTy).Contents (Elt Ideal)) (h : S8x2048x2048.Reduces [2] S8x2048)
    (b : Fin 8) (q : Fin 2048) :
    Host.reduce (FloatOps.maximumf (F := Ideal) (φ := .f32)) y (val_main_cst_1 (F := Ideal)) reducesTo_S8x2048x2048_S8x2048_d2 h_S_ (ix2 b q)
      = (Finset.univ : Finset (Fin 2048)).fold max Cert.Attn.negInf fun k => y (ix3 b q k) :=
  (Host.reduce_eq_fold_single (FloatOps.maximumf (F := Ideal) (φ := .f32)) y _ reducesTo_S8x2048x2048_S8x2048_d2 h h_S_ (ix2 b q)).trans
    (congrArg (fun f => Finset.fold max Cert.Attn.negInf f (Finset.univ : Finset (Fin 2048)))
      (funext fun k => congrArg y (funext fun ax => Fin.ext (by
        match ax with
        | ⟨0, _⟩ => rfl
        | ⟨1, _⟩ => rfl
        | ⟨2, _⟩ => rfl))))

/-- The row maximum at `(b, q)` is the largest score of the row. -/
theorem rowMax_eq (x0 x1 : Act) (x2 x3 : Mat) (b : Fin 8) (q : Fin 2048) :
    val_main_v8 (F := Ideal) x0 x1 x2 x3 (ix2 b q) = Cert.Attn.smax (scoreRow x0 x1 x2 x3 b q) := by
  unfold val_main_v8
  rw [rowMax _ (by decide)]
  exact congrArg (fun f => Finset.fold max Cert.Attn.negInf f (Finset.univ : Finset (Fin 2048)))
    (funext fun k => score_eq x0 x1 x2 x3 b q k)

/-- Taking the maximum with −∞ once more changes nothing: a running maximum is above the value it starts from. -/
theorem rowMax_again (x0 x1 : Act) (x2 x3 : Mat) (b : Fin 8) (q : Fin 2048) :
    val_main_v10 (F := Ideal) x0 x1 x2 x3 (ix2 b q) = Cert.Attn.smax (scoreRow x0 x1 x2 x3 b q) := by
  rw [val_main_v10_apply, val_main_v9_apply, val_main_cst_2_apply, rowMax_eq]
  exact max_eq_right (Cert.Attn.negInf_le_smax _)

/-- The kept axis spread back over the row reads the row's maximum at every `k`. -/
theorem rowMax_spread (x0 x1 : Act) (x2 x3 : Mat) (b : Fin 8) (q k : Fin 2048) :
    val_main_v12 (F := Ideal) x0 x1 x2 x3 (ix3 b q k) = Cert.Attn.smax (scoreRow x0 x1 x2 x3 b q) := by
  rw [val_main_v12_apply, val_main_v11_apply, idx2_eq (idx_main_v11 (idx_main_v12 (ix3 b q k))) b q rfl rfl, rowMax_again]

/-! ## The exponentials, their sum, the quotient -/

/-- The exponential of a score less the row's maximum. -/
theorem pexp_eq (x0 x1 : Act) (x2 x3 : Mat) (b : Fin 8) (q k : Fin 2048) :
    val_main_v14 (F := Ideal) x0 x1 x2 x3 (ix3 b q k) = Cert.Attn.pexp (scoreRow x0 x1 x2 x3 b q) k := by
  rw [val_main_v14_apply, val_main_v13_apply, score_eq, rowMax_spread]
  rfl

/-- The sum of the row's exponentials, from 0. -/
theorem psum_eq (x0 x1 : Act) (x2 x3 : Mat) (b : Fin 8) (q : Fin 2048) :
    val_main_v15 (F := Ideal) x0 x1 x2 x3 (ix2 b q) = ∑ k : Fin 2048, Cert.Attn.pexp (scoreRow x0 x1 x2 x3 b q) k := by
  rw [val_main_v15_apply, val_main_cst_3_apply, Ideal.ofBits_def, Ideal.ofBits_zero_f32, zero_add]
  refine Finset.sum_congr rfl fun k _ => ?_
  rw [idx3_eq (idx_main_v15 (ix2 b q) k) b q k rfl rfl rfl, pexp_eq]

/-- The kept axis spread back over the row reads the row's sum at every `k`. -/
theorem psum_spread (x0 x1 : Act) (x2 x3 : Mat) (b : Fin 8) (q k : Fin 2048) :
    val_main_v17 (F := Ideal) x0 x1 x2 x3 (ix3 b q k) = ∑ k' : Fin 2048, Cert.Attn.pexp (scoreRow x0 x1 x2 x3 b q) k' := by
  rw [val_main_v17_apply, val_main_v16_apply, idx2_eq (idx_main_v16 (idx_main_v17 (ix3 b q k))) b q rfl rfl, psum_eq]

/-- The attention weight at `(b, q, k)`. -/
theorem weights_at (x0 x1 : Act) (x2 x3 : Mat) (b : Fin 8) (q k : Fin 2048) :
    val_main_v18 (F := Ideal) x0 x1 x2 x3 (ix3 b q k)
      = Cert.Attn.weights (Cert.Attn.rowOf x0 b q) (Cert.Attn.mat x2) (Cert.Attn.kv x1 x3 b) k := by
  rw [val_main_v18_apply, pexp_eq, psum_spread]
  rfl

/-- The reference's second result is the specification's attention weights. -/
theorem weights_eq (x0 x1 : (⟨S8x2048x1024, .f32⟩ : BufTy).Contents (Elt Ideal)) (x2 x3 : (⟨S1024x1024, .f32⟩ : BufTy).Contents (Elt Ideal)) :
    val_main_v18 (F := Ideal) x0 x1 x2 x3 = Cert.Attn.weightsG x0 x1 x2 x3 := by
  funext i
  obtain ⟨b, q, k, rfl⟩ : ∃ (b : Fin 8) (q : Fin 2048) (k : Fin 2048), i = ix3 b q k := ⟨i 0, i 1, i 2, eq_ix3 i⟩
  exact weights_at x0 x1 x2 x3 b q k

/-! ## The weighted value rows and the output projection -/

/-- The weighted value rows of query row `(b, q)`, at coordinate `e`. -/
theorem context_at (x0 x1 : Act) (x2 x3 x4 : Mat) (b : Fin 8) (q : Fin 2048) (e : Fin 1024) :
    val_main_v19 (F := Ideal) x0 x1 x2 x3 x4 (ix3 b q e)
      = Cert.Attn.context (Cert.Attn.weights (Cert.Attn.rowOf x0 b q) (Cert.Attn.mat x2) (Cert.Attn.kv x1 x3 b))
          (Cert.Attn.kv x1 x4 b) e := by
  rw [val_main_v19_apply]
  show _ = ∑ k : Fin 2048, Cert.Attn.weights (Cert.Attn.rowOf x0 b q) (Cert.Attn.mat x2) (Cert.Attn.kv x1 x3 b) k
    * Cert.Attn.kv x1 x4 b k e
  refine Finset.sum_congr rfl fun k _ => ?_
  rw [idx3_eq (lidx_main_v19 (ix3 b q e) k) b q k rfl rfl rfl, idx3_eq (ridx_main_v19 (ix3 b q e) k) b k e rfl rfl rfl,
    weights_at, proj_v]

/-- The projected output of query row `(b, q)`, at coordinate `f`. -/
theorem output_at (x0 x1 : Act) (x2 x3 x4 x5 : Mat) (b : Fin 8) (q : Fin 2048) (f : Fin 1024) :
    val_main_v20 (F := Ideal) x0 x1 x2 x3 x4 x5 (ix3 b q f)
      = Cert.Attn.output (Cert.Attn.rowOf x0 b q) (Cert.Attn.mat x2) (Cert.Attn.kv x1 x3 b) (Cert.Attn.kv x1 x4 b)
          (Cert.Attn.mat x5) f := by
  rw [val_main_v20_apply]
  show _ = ∑ e : Fin 1024,
    Cert.Attn.context (Cert.Attn.weights (Cert.Attn.rowOf x0 b q) (Cert.Attn.mat x2) (Cert.Attn.kv x1 x3 b))
      (Cert.Attn.kv x1 x4 b) e * Cert.Attn.mat x5 e f
  refine Finset.sum_congr rfl fun e _ => ?_
  rw [idx3_eq (lidx_main_v20 (ix3 b q f) e) b q e rfl rfl rfl, idx2_eq (ridx_main_v20 (ix3 b q f) e) e f rfl rfl,
    context_at]
  rfl

/-- The reference's first result is the specification's attention output. -/
theorem output_eq (x0 x1 : (⟨S8x2048x1024, .f32⟩ : BufTy).Contents (Elt Ideal)) (x2 x3 x4 x5 : (⟨S1024x1024, .f32⟩ : BufTy).Contents (Elt Ideal)) :
    val_main_v20 (F := Ideal) x0 x1 x2 x3 x4 x5 = Cert.Attn.outputG x0 x1 x2 x3 x4 x5 := by
  funext i
  obtain ⟨b, q, f, rfl⟩ : ∃ (b : Fin 8) (q : Fin 2048) (f : Fin 1024), i = ix3 b q f := ⟨i 0, i 1, i 2, eq_ix3 i⟩
  exact output_at x0 x1 x2 x3 x4 x5 b q f

end Cert.ReferenceIdeal.RefValue

end
-- ==== Proof.lean ====
/-
  Fused attention with its projections against the plain jnp reference, on the extended reals.

  The kernel program: the host flattens the context and changes the weights' format; a first region projects the flattened
  context through `Wk` and `Wv`, 1024 rows at a point; the host casts the two products back to three axes; a second region,
  at each batch and each tile of 256 query rows, projects the tile through `Wq`, scores it against the batch's 2048 key
  rows, scales by 2⁻⁵, takes the row softmax (the maximum off, the exponentials, their sum, the quotient), writes the
  weights, multiplies them into the batch's value rows and the result through `Wo`. The reference: the same projections as
  three `dot_general`s, the scale as one over the square root of 1024, jax's softmax, two more `dot_general`s.

  On the extended reals every change of format is the identity, every matrix product is the `Fin`-indexed sum of products
  in the contracted index, a tiled product is the whole product read at the tile, and 1 / √1024 = 1 / 32 = 2⁻⁵ exactly. So
  both programs end with the SAME two functions of the arguments (`Proof/Spec.lean`): for each query row, the attention
  weights `Attn.weightsG` and the projected output `Attn.outputG` — no law beyond reading each sum where it stands is
  needed, and the precondition is never opened.

  * `Proof/Payload.lean`: the two kernel bodies' arithmetic, read at an index, is the row functions of the loaded blocks.
  * `Proof/KVArray.lean`, `Proof/AttnArray.lean`: each region's blocks tile its result arrays, so each array ends at one
    whole-array function of what the region found on entry.
  * `Proof/HostVals.lean`: what each region finds, through the host's reshapes and format changes.
  * `Proof/Run.lean`: the program's run with its two result buffers named; `Proof/Values.lean`: those contents are
    `Attn.outputG` and `Attn.weightsG` of the arguments.
  * `Proof/RefValue.lean`: the reference's two results are the same two functions.
  The three frames are the generated runs; the idealization rewrote nothing, so `preserves` is `True`.
-/
import proofs.«130944_j86835648791168_2_alg».proof.Defs
import proofs.«130944_j86835648791168_2_alg».proof.Proof.Gen.Kernel
import proofs.«130944_j86835648791168_2_alg».proof.Proof.Gen.Kernel.Frame
import proofs.«130944_j86835648791168_2_alg».proof.Proof.Gen.KernelIdeal
import proofs.«130944_j86835648791168_2_alg».proof.Proof.Gen.KernelIdeal.Frame
import proofs.«130944_j86835648791168_2_alg».proof.Proof.Gen.ReferenceIdeal
import proofs.«130944_j86835648791168_2_alg».proof.Proof.Gen.ReferenceIdeal.Run
import proofs.«130944_j86835648791168_2_alg».proof.Proof.Gen.ReferenceIdeal.Read
import proofs.«130944_j86835648791168_2_alg».proof.Proof.Gen.Pre_finite_inputs
import proofs.«130944_j86835648791168_2_alg».proof.Proof.Spec
import proofs.«130944_j86835648791168_2_alg».proof.Proof.Run
import proofs.«130944_j86835648791168_2_alg».proof.Proof.Values
import proofs.«130944_j86835648791168_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the projected attention output and the attention weights of the arguments. -/
theorem algebraic : Cert.algebraic_KernelIdeal_ReferenceIdeal := by
  intro m ρ m' ρ' _ hagree
  refine ⟨fun c => Cert.Attn.outputG (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
    fun c => Cert.Attn.weightsG (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Values.output_eq m ρ c),
        (h c).2.1.trans (Cert.KernelIdeal.Values.weights_eq m ρ c), (h c).2.2⟩)
      (Cert.KernelIdeal.Run.run_named m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v20_eq, Cert.ReferenceIdeal.RefValue.output_eq,
        (hagree c).1, (hagree c).2.1, (hagree c).2.2.1, (hagree c).2.2.2.1, (hagree c).2.2.2.2.1, (hagree c).2.2.2.2.2]
    · rw [(h c).2.1, Cert.ReferenceIdeal.Read.val_main_v18_eq, Cert.ReferenceIdeal.RefValue.weights_eq,
        (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
